-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S10000x128 : Shape := ⟨2, ![10000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x40 : Shape := ⟨2, ![1, 40]⟩
abbrev S100000x40 : Shape := ⟨2, ![100000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 66
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S1x40, .f32⟩
  | .hbm, ⟨65, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x40, .f32⟩
  | .local _ .vmem, ⟨9, _⟩ => ⟨S1x40, .f32⟩
  | .local _ .vmem, ⟨10, _⟩ => ⟨S10000x40, .f32⟩
  | .local _ .vmem, ⟨11, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S40_S1x40 : S40.ShapeCasts S1x40
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x40.size a ≤ S100000x40.size a
  hwx1_4 : ∀ i : grid1.Coords, EltTy.bits .f32 = 32 ∨ (Rect.block (s := S100000x40) S10000x40.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S10000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x40, .f32⟩
  | .hbm, ⟨70, _⟩ => ⟨S1x40, .f32⟩
  | .hbm, ⟨71, _⟩ => ⟨S100000x40, .f32⟩
  | .hbm, ⟨72, _⟩ => ⟨S100000x40, .f32⟩
  | .hbm, ⟨73, _⟩ => ⟨S_, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x40, .f32⟩
  | .hbm, ⟨80, _⟩ => ⟨S100000x40, .f32⟩
  | .hbm, ⟨81, _⟩ => ⟨S100000x40, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S100000x1, .f32⟩
  | .hbm, ⟨86, _⟩ => ⟨S100000x40, .f32⟩
  | .hbm, ⟨87, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call2_cst : Ref sig .tc := ⟨.hbm, 73, rfl⟩
abbrev main_call2_v0 : Ref sig .tc := ⟨.hbm, 74, rfl⟩
abbrev main_call2_cst_0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_cst_1 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_v52 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run, read at the last boundary.

  The program is two launches among stretches of host operations.  Run segment by segment, a core's unscoped
  buffers pass from the launch memory through one set of contents per segment boundary; the last of these has the
  second launch's arrays at what its write-backs leave, block after block, and every other buffer as the host
  operations before it left it.  First: every weakly fair execution terminates, without a fault, with every
  unscoped buffer of every core at that last boundary's contents.  Then the result buffer and the argument arrays are
  read off that statement: the result is the fold of the second launch's write-backs over its output window's array,
  the arguments are as launched.
-/
import proofs.«160370_j20864951124663_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and then every unscoped buffer of every
    core holds the last segment boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result buffer after the run holds the second launch's output array as its write-backs leave it, and the
    argument arrays are as launched. -/
theorem run_result : θ_run defs (onTc (τ := τ) (main (F := F))) ⟨m, fun _ => 0, ρ⟩ (fun r => ∀ c : Dev nD,
      r.2.mem ((c.tc : Thread nD τ).loc main_v46) = (dat1 (V4 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v46 (by decide))).trans (W5_arr m ρ c 4),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_boundary m ρ)

end Cert.KernelIdeal.RunValue

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«160370_j20864951124663_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.Projection.lean ====
/-
  The first launch: the projection  x · W1  computed in ten blocks of 10000 rows.

  At grid point t the body multiplies rows 10000·t … 10000·t + 9999 of x (its first window's block) by the whole of W1
  (its second window's block) into a zero accumulator, and writes the product back as the same rows of the output.
  An entry (p, c) of that block is the sum over k of x(10000·t + p, k) · W1(k, c): entry (10000·t + p, c) of the product of
  the whole arrays.  The ten blocks tile the output, so after the launch the output array is the product, which is
  what the host's dot_general of the two arrays is at the ideal values.
-/
import proofs.«160370_j20864951124663_1_alg».proof.Proof.Gen.KernelIdeal.Frame
import proofs.«160370_j20864951124663_1_alg».proof.Proof.LibRowBlocks
import Idealize.ShloMosaic.Lib.Pipeline.Value

set_option maxRecDepth 16384

noncomputable section

namespace Cert.KernelIdeal.Projection

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.PlainDot Cert.Bridge

variable (m : (ℓ : Loc nD τ sig) → Buf (Elt Ideal) ℓ) (ρ : Dev nD → PrngReg)

/-- The product of the whole arrays, as the host's dot_general computes it at the ideal values. -/
abbrev product (D : DotDims ⟨2, ![100000, 128]⟩ ⟨2, ![128, 128]⟩ ⟨2, ![100000, 128]⟩)
    (X : FVec Ideal ⟨2, ![100000, 128]⟩ .f32) (W : FVec Ideal ⟨2, ![128, 128]⟩ .f32) : S100000x128.Idx → Elt Ideal .f32 :=
  Host.dotGeneral (F := Ideal) D none X W

theorem zeroOffsets : (![0, 0] : Fin 2 → Nat) = fun _ => 0 := funext fun a => by fin_cases a <;> rfl

/-- The printed index maps over the grid: the x window and the output window are at row block t, column block 0;
    the W1 window is always the whole array. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Every row block of the output is some point's. -/
theorem blockOnto : ∀ q : Fin 10, ∃ t : Fin cfg0.N, t.val = q.val :=
  (by decide +kernel : ∀ q : Fin 10, ∃ t : Fin grid0.N, t.val = q.val)

/-- THE BODY'S PRODUCT at an entry of its block, against the host's product of the whole arrays: stated over
    any two blocks that read the arrays X and W through row-block embeddings. -/
theorem payload_apply (D : DotDims ⟨2, ![100000, 128]⟩ ⟨2, ![128, 128]⟩ ⟨2, ![100000, 128]⟩)
    (hD : D = DotDims.plain 100000 128 128)
    (X : FVec Ideal ⟨2, ![100000, 128]⟩ .f32) (W : FVec Ideal ⟨2, ![128, 128]⟩ .f32)
    (x0 : Vec Ideal S10000x128 .f32) (x1 : Vec Ideal S128x128 .f32)
    (e0 : S10000x128.Idx → (⟨2, ![100000, 128]⟩ : Shape).Idx) (e1 : S128x128.Idx → S128x128.Idx)
    (eo : S10000x128.Idx → (⟨2, ![100000, 128]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : S10000x128.Idx) :
    k0_pay1 (F := Ideal) x0 x1 y = product D X W (eo y) := by
  unfold k0_pay1
  exact dot_block (R := 10000) (N := 100000) (K := 128) (C := 128) dot_S10000x128_S128x128_S10000x128_1_0_0_1_n_n rfl D hD
    none none X W (truncf .bf16 x0 bitsLt_bf16_f32) (truncf .bf16 x1 bitsLt_bf16_f32) e0 e1 eo hx0 hx1 h0 h1 y

/-- WHAT POINT t WRITES BACK is block t of the product of the argument arrays. -/
theorem flushed_eq (D : DotDims ⟨2, ![100000, 128]⟩ ⟨2, ![128, 128]⟩ ⟨2, ![100000, 128]⟩)
    (hD : D = DotDims.plain 100000 128 128) (c : Dev nD) (t : Fin cfg0.N) :
    (dat0 (V0 m ρ) c).flushed 2 t = ((cfg0.win 2).blk t).view.read (Elt Ideal)
      (product D (m ((c : Thread nD τ).loc main_arg0)) (m ((c : Thread nD τ).loc main_arg2))) := by
  show (cfg0.win 2).cut (grid0.coords t) ((dat0 (V0 m ρ) c).after 2 t) = _
  rw [after0_2]
  unfold out0_2
  rw [View.canon_unit_zero zeroOffsets]
  simp only [View.ld_unit_zero (S := S10000x128) zeroOffsets, View.ld_unit_zero (S := S128x128) zeroOffsets]
  obtain ⟨a0, a1, b0, b1, o0, o1, -⟩ := blockIndices t
  funext y
  refine payload_apply D hD (m ((c : Thread nD τ).loc main_arg0)) (m ((c : Thread nD τ).loc main_arg2))
    (iblk0 (V0 m ρ) c 0 t) (iblk0 (V0 m ρ) c 1 t)
    ((cfg0.win 0).blk t).view.emb ((cfg0.win 1).blk t).view.emb ((cfg0.win 2).blk t).view.emb
    (fun j => rfl) (fun j => rfl) (fun y k => ?_) (fun y k => ?_) y
  · funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- An index of the output array is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The ten blocks tile the output array: row r is in the block of point r / 10000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockOnto ⟨(i 0).val / 10000, by omega⟩
  have ht' : t.val = (i 0).val / 10000 := ht
  obtain ⟨-, -, -, -, o0, o1, -⟩ := blockIndices t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY after the first launch is the host's product of the two argument arrays. -/
theorem projected (D : DotDims ⟨2, ![100000, 128]⟩ ⟨2, ![128, 128]⟩ ⟨2, ![100000, 128]⟩)
    (hD : D = DotDims.plain 100000 128 128) (c : Dev nD) :
    (dat0 (V0 m ρ) c).arrAt 2 cfg0.N
      = product D (m ((c : Thread nD τ).loc main_arg0)) (m ((c : Thread nD τ).loc main_arg2)) :=
  (dat0 (V0 m ρ) c).arrAt_eq_of_cover 2 _ (fun t _ => flushed_eq m ρ D hD c t) covered

end Cert.KernelIdeal.Projection

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibLogSoftmaxRow.lean ====
/-
  The logarithm of the softmax of a row of extended reals, and the two operation trees that compute it.

  For a row x the function is  x c - M - log (sum over k of exp (x k - M)),  M the maximum of the row taken
  from the least extended real.  A row-blocked kernel computes it over an [a, b] block with lane reductions kept as
  [a, 1] columns and stretched back over the lanes; the host computes it over an [n, b] array with reductions over
  axis 1, the maximum once more joined with the least element, and each reduction broadcast back in two steps.
  Both trees, read at (r, c), are the function of row r at c.  No finiteness is used: the two sides are the same
  expression of the row's entries.
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce
import proofs.«160370_j20864951124663_1_alg».proof.Proof.LibRowLayout

noncomputable section

namespace Cert.Lib.LogSoftmaxRow

open Idealize.ShloMosaic Idealize.ShloMosaic.ValueIdx Cert.KernelIdeal.MvnKernel
open scoped BigOperators

variable {a b : ℕ}

/-- The f32 pattern of minus infinity, as an extended real. -/
abbrev negInf : EReal := Ideal.ofBits .f32 0xFF800000#32

/-- The maximum of a row, folded from minus infinity. -/
def rowMax (row : Fin b → EReal) : EReal := (Finset.univ : Finset (Fin b)).fold max negInf row

/-- The logarithm of the softmax of a row, at position c. -/
def logSoftmaxRow (row : Fin b → EReal) (c : Fin b) : EReal :=
  (row c - rowMax row) - Ideal.log (∑ k : Fin b, Ideal.exp (row k - rowMax row))

/-- Minus infinity is the least extended real: joining it with anything changes nothing. -/
theorem max_negInf (y : EReal) : max negInf y = y := by
  show max (Ideal.ofBits .f32 0xFF800000#32) y = y
  simp [Ideal.ofBits, Ideal.ieee]

/-- The zero pattern is the real zero. -/
theorem zero_add_ofBits (y : EReal) : Ideal.ofBits .f32 0x00000000#32 + y = y := by
  rw [Ideal.ofBits_zero_f32, zero_add]

/-- The logarithm of a vector, read at an index. -/
theorem log_apply {s : Shape} (x : FVec Ideal s .f32) (i : s.Idx) : log x i = Ideal.log (x i) := rfl

/-! ## The kernel's tree -/

/-- The lane maximum of a block, kept as a column and stretched back over the lanes, read at (p, c). -/
theorem laneMax_apply (L : FVec Ideal ⟨2, ![a, b]⟩ .f32)
    (hr : (⟨2, ![a, b]⟩ : Shape).Reduces [1] ⟨1, ![a]⟩) (hφ : FKind.Formats .f32)
    (hacc : (0xFF800000#32 : BitVec (FTy.bits .f32)) = FKind.maximumf.neutral .f32 hφ)
    (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩
        (multiReduction .maximumf [1] ⟨1, ![a]⟩ L 0xFF800000#32 hr hφ hacc) hc) hb (ix2 p c)
      = rowMax (fun k => L (ix2 p k)) := by
  rw [broadcastTo_a1_ab_apply, shapeCast_a_a1_apply, multiReduction_max_row]
  rfl

/-- The lane sum of a block, kept as a column, read at (p, 0). -/
theorem laneSum_apply (E : FVec Ideal ⟨2, ![a, b]⟩ .f32)
    (hr : (⟨2, ![a, b]⟩ : Shape).Reduces [1] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ E 0x00000000#32 hr hφ hacc) hc (ix2 p u)
      = ∑ k : Fin b, E (ix2 p k) := by
  rw [shapeCast_a_a1_apply, multiReduction_add_row]

/-- THE KERNEL'S TREE over a block of logits, read at (p, c): the function of row p at c. -/
theorem kernelTree_apply (L : FVec Ideal ⟨2, ![a, b]⟩ .f32)
    (hr : (⟨2, ![a, b]⟩ : Shape).Reduces [1] ⟨1, ![a]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (c : Fin b) :
    subf (subf L (broadcastTo ⟨2, ![a, b]⟩ (shapeCast ⟨2, ![a, 1]⟩
          (multiReduction .maximumf [1] ⟨1, ![a]⟩ L 0xFF800000#32 hr hφ hmax) hc) hb))
        (broadcastTo ⟨2, ![a, b]⟩ (log (shapeCast ⟨2, ![a, 1]⟩
          (multiReduction .add [1] ⟨1, ![a]⟩
            (exp (subf L (broadcastTo ⟨2, ![a, b]⟩ (shapeCast ⟨2, ![a, 1]⟩
              (multiReduction .maximumf [1] ⟨1, ![a]⟩ L 0xFF800000#32 hr hφ hmax) hc) hb)))
            0x00000000#32 hr hφ hadd) hc)) hb) (ix2 p c)
      = logSoftmaxRow (fun k => L (ix2 p k)) c := by
  rw [subf_apply, subf_apply, laneMax_apply, broadcastTo_a1_ab_apply, log_apply, laneSum_apply]
  unfold logSoftmaxRow
  refine congrArg (fun s => (L (ix2 p c) - rowMax (fun k => L (ix2 p k))) - Ideal.log s) ?_
  refine Finset.sum_congr rfl fun k _ => ?_
  rw [exp_apply, subf_apply, laneMax_apply]

/-! ## The host's tree -/

variable {n : ℕ}

/-- The reduced index r with lane k put back is (r, k). -/
theorem lift_row (h : (⟨2, ![n, b]⟩ : Shape).Reduces [1] (⟨1, ![n]⟩ : Shape)) (r : Fin n)
    (k : Fin ((⟨2, ![n, b]⟩ : Shape).size 1)) : h.lift (ix1 r) k = ix2 r (⟨k.val, k.isLt⟩ : Fin b) := by
  funext d; apply Fin.ext
  fin_cases d <;> rfl

/-- The host's maximum over axis 1 from minus infinity, joined once more with minus infinity, at row r. -/
theorem hostMax_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![]) (r : Fin n) :
    maximumf (broadcastInDim ⟨1, ![n]⟩ ![] hs (constant (F := Ideal) ⟨0, ![]⟩ .f32 0xFF800000#32))
        (Host.reduce FloatOps.maximumf L (constant (F := Ideal) ⟨0, ![]⟩ .f32 0xFF800000#32) h' hu) (ix1 r)
      = rowMax (fun k => L (ix2 r k)) := by
  rw [maximumf_apply, broadcastInDim_apply ![] hs _ (ix1 r) ix0 (fun d => d.elim0),
    Host.reduce_eq_fold_single FloatOps.maximumf L _ h' h hu]
  show max negInf ((Finset.univ : Finset (Fin b)).fold max negInf (L ∘ h.lift (ix1 r))) = _
  rw [max_negInf]
  unfold rowMax
  exact congrArg (fun f => (Finset.univ : Finset (Fin b)).fold max negInf f)
    (funext fun k => congrArg L (lift_row h r k))

/-- A vector laid out as an [n, 1] column by the host, read at (r, u): the vector at r. -/
theorem hostColumn_apply {α : Type} (v : (⟨1, ![n]⟩ : Shape).Idx → α)
    (h0 : (⟨1, ![n]⟩ : Shape).BroadcastsInDim ⟨2, ![n, 1]⟩ ![0]) (r : Fin n) (u : Fin 1) :
    broadcastInDim ⟨2, ![n, 1]⟩ ![0] h0 v (ix2 r u) = v (ix1 r) := by
  refine broadcastInDim_apply ![0] h0 v (ix2 r u) (ix1 r) (fun d => ?_)
  match d with
  | ⟨0, _⟩ =>
    show r.val = if n = 1 then 0 else r.val
    have hlt : r.val < n := r.isLt
    split_ifs with hn
    · omega
    · rfl

/-- An [n, 1] column stretched over b lanes by the host, read at (r, c): the column at row r. -/
theorem hostStretchColumn_apply {α : Type} (v : (⟨2, ![n, 1]⟩ : Shape).Idx → α)
    (h01 : (⟨2, ![n, 1]⟩ : Shape).BroadcastsInDim ⟨2, ![n, b]⟩ ![0, 1]) (r : Fin n) (c : Fin b) :
    broadcastInDim ⟨2, ![n, b]⟩ ![0, 1] h01 v (ix2 r c) = v (ix2 r (0 : Fin 1)) := by
  refine broadcastInDim_apply ![0, 1] h01 v (ix2 r c) (ix2 r (0 : Fin 1)) (fun d => ?_)
  match d with
  | ⟨0, _⟩ =>
    show r.val = if n = 1 then 0 else r.val
    have hlt : r.val < n := r.isLt
    split_ifs with hn
    · omega
    · rfl
  | ⟨1, _⟩ => exact (if_pos rfl).symm

/-- The host's sum over axis 1 from the zero pattern, at row r: the sum of the row's entries. -/
theorem hostSum_apply (E : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel) (r : Fin n) :
    Host.reduceAdd E (constant (F := Ideal) ⟨0, ![]⟩ .f32 0x00000000#32) h' hu (ix1 r) = ∑ k : Fin b, E (ix2 r k) := by
  simp only [Host.reduceAdd, Ideal.hostReduceAdd_def]
  rw [Ideal.hostReduceAdd_single h' h]
  show Ideal.ofBits .f32 0x00000000#32 + _ = _
  rw [zero_add_ofBits]
  exact Finset.sum_congr rfl fun k _ => congrArg E (lift_row h r k)

/-- The host's row maximum laid out as a column and stretched over the lanes, read at (r, c). -/
theorem hostMaxColumn_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![])
    (h0 : (⟨1, ![n]⟩ : Shape).BroadcastsInDim ⟨2, ![n, 1]⟩ ![0])
    (h01 : (⟨2, ![n, 1]⟩ : Shape).BroadcastsInDim ⟨2, ![n, b]⟩ ![0, 1]) (r : Fin n) (c : Fin b) :
    broadcastInDim ⟨2, ![n, b]⟩ ![0, 1] h01 (broadcastInDim ⟨2, ![n, 1]⟩ ![0] h0
        (maximumf (broadcastInDim ⟨1, ![n]⟩ ![] hs (constant (F := Ideal) ⟨0, ![]⟩ .f32 0xFF800000#32))
          (Host.reduce FloatOps.maximumf L (constant (F := Ideal) ⟨0, ![]⟩ .f32 0xFF800000#32) h' hu))) (ix2 r c)
      = rowMax (fun k => L (ix2 r k)) := by
  rw [hostStretchColumn_apply, hostColumn_apply, hostMax_apply L h' h hu hs r]

/-- The host's logarithm and exponential of a vector, read at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- THE HOST'S TREE over an array of logits, read at (r, c): the function of row r at c. -/
theorem hostTree_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![])
    (h0 : (⟨1, ![n]⟩ : Shape).BroadcastsInDim ⟨2, ![n, 1]⟩ ![0])
    (h01 : (⟨2, ![n, 1]⟩ : Shape).BroadcastsInDim ⟨2, ![n, b]⟩ ![0, 1]) (r : Fin n) (c : Fin b) :
    subf (subf L (broadcastInDim ⟨2, ![n, b]⟩ ![0, 1] h01 (broadcastInDim ⟨2, ![n, 1]⟩ ![0] h0
          (maximumf (broadcastInDim ⟨1, ![n]⟩ ![] hs (constant (F := Ideal) ⟨0, ![]⟩ .f32 0xFF800000#32))
            (Host.reduce FloatOps.maximumf L (constant (F := Ideal) ⟨0, ![]⟩ .f32 0xFF800000#32) h' hu)))))
        (broadcastInDim ⟨2, ![n, b]⟩ ![0, 1] h01 (Host.log (broadcastInDim ⟨2, ![n, 1]⟩ ![0] h0
          (Host.reduceAdd
            (Host.exp (subf L (broadcastInDim ⟨2, ![n, b]⟩ ![0, 1] h01 (broadcastInDim ⟨2, ![n, 1]⟩ ![0] h0
              (maximumf (broadcastInDim ⟨1, ![n]⟩ ![] hs (constant (F := Ideal) ⟨0, ![]⟩ .f32 0xFF800000#32))
                (Host.reduce FloatOps.maximumf L (constant (F := Ideal) ⟨0, ![]⟩ .f32 0xFF800000#32) h' hu))))))
            (constant (F := Ideal) ⟨0, ![]⟩ .f32 0x00000000#32) h' hu)))) (ix2 r c)
      = logSoftmaxRow (fun k => L (ix2 r k)) c := by
  rw [subf_apply, subf_apply, hostMaxColumn_apply L h' h hu hs h0 h01 r c, hostStretchColumn_apply, hostLog_apply,
    hostColumn_apply, hostSum_apply _ h' h hu r]
  unfold logSoftmaxRow
  refine congrArg (fun s => (L (ix2 r c) - rowMax (fun k => L (ix2 r k))) - Ideal.log s) ?_
  refine Finset.sum_congr rfl fun k _ => ?_
  rw [hostExp_apply, subf_apply, hostMaxColumn_apply L h' h hu hs h0 h01 r k]

end Cert.Lib.LogSoftmaxRow

end
-- ==== Proof.Head.lean ====
/-
  The second launch: bias, rectifier, the linear layer and the logarithm of the softmax, in ten blocks of 10000 rows.

  At grid point t the body reads rows 10000·t … 10000·t + 9999 of the aggregated features A, the one-row bias B1, the
  whole weight matrix W and the one-row bias B2, and computes for each of its rows p
      u k = max (A(10000·t + p, k) + B1(0, k), 0),      l c = (sum over k of u k · W(k, c)) + B2(0, c),
      out c = l c - M - log (sum over j of exp (l j - M)),   M the maximum of the l j,
  then writes the block back as the same rows of the output.  The row  l  is row 10000·t + p of the logits the
  host computes from the whole arrays (a rectified sum, a dot_general, a bias row stretched down the rows), so the
  block's entry (p, c) is the logarithm of the softmax of that row at c.  The ten blocks tile the output.
-/
import proofs.«160370_j20864951124663_1_alg».proof.Proof.Gen.KernelIdeal.Frame
import proofs.«160370_j20864951124663_1_alg».proof.Proof.LibRowBlocks
import proofs.«160370_j20864951124663_1_alg».proof.Proof.LibLogSoftmaxRow
import Idealize.ShloMosaic.Lib.Pipeline.Value

set_option maxRecDepth 16384

noncomputable section

namespace Cert.KernelIdeal.Head

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.PlainDot Cert.Bridge Cert.Lib.LogSoftmaxRow

/-- The rectified features of the whole array, as the host computes them: A plus the bias row stretched down the
    rows, joined with the zero constant. -/
abbrev rectified (hB1 : (⟨2, ![1, 128]⟩ : Shape).BroadcastsInDim ⟨2, ![100000, 128]⟩ ![0, 1])
    (hZ : (⟨0, ![]⟩ : Shape).BroadcastsInDim ⟨2, ![100000, 128]⟩ ![])
    (A : FVec Ideal ⟨2, ![100000, 128]⟩ .f32) (B1 : FVec Ideal ⟨2, ![1, 128]⟩ .f32) : FVec Ideal ⟨2, ![100000, 128]⟩ .f32 :=
  maximumf (addf A (broadcastInDim ⟨2, ![100000, 128]⟩ ![0, 1] hB1 B1))
    (broadcastInDim ⟨2, ![100000, 128]⟩ ![] hZ (constant (F := Ideal) ⟨0, ![]⟩ .f32 0x00000000#32))

/-- The logits of the whole array, as the host computes them. -/
abbrev logits (D : DotDims ⟨2, ![100000, 128]⟩ ⟨2, ![128, 40]⟩ ⟨2, ![100000, 40]⟩)
    (hB1 : (⟨2, ![1, 128]⟩ : Shape).BroadcastsInDim ⟨2, ![100000, 128]⟩ ![0, 1])
    (hZ : (⟨0, ![]⟩ : Shape).BroadcastsInDim ⟨2, ![100000, 128]⟩ ![])
    (hB2 : (⟨2, ![1, 40]⟩ : Shape).BroadcastsInDim ⟨2, ![100000, 40]⟩ ![0, 1])
    (A : FVec Ideal ⟨2, ![100000, 128]⟩ .f32) (B1 : FVec Ideal ⟨2, ![1, 128]⟩ .f32)
    (W : FVec Ideal ⟨2, ![128, 40]⟩ .f32) (B2 : FVec Ideal ⟨2, ![1, 40]⟩ .f32) : FVec Ideal ⟨2, ![100000, 40]⟩ .f32 :=
  addf (Host.dotGeneral (F := Ideal) D none (rectified hB1 hZ A B1) W) (broadcastInDim ⟨2, ![100000, 40]⟩ ![0, 1] hB2 B2)

/-- THE OUTPUT the launch should leave: at (r, c) the logarithm of the softmax of row r of the logits, at c. -/
def headOut (D : DotDims ⟨2, ![100000, 128]⟩ ⟨2, ![128, 40]⟩ ⟨2, ![100000, 40]⟩)
    (hB1 : (⟨2, ![1, 128]⟩ : Shape).BroadcastsInDim ⟨2, ![100000, 128]⟩ ![0, 1])
    (hZ : (⟨0, ![]⟩ : Shape).BroadcastsInDim ⟨2, ![100000, 128]⟩ ![])
    (hB2 : (⟨2, ![1, 40]⟩ : Shape).BroadcastsInDim ⟨2, ![100000, 40]⟩ ![0, 1])
    (A : FVec Ideal ⟨2, ![100000, 128]⟩ .f32) (B1 : FVec Ideal ⟨2, ![1, 128]⟩ .f32)
    (W : FVec Ideal ⟨2, ![128, 40]⟩ .f32) (B2 : FVec Ideal ⟨2, ![1, 40]⟩ .f32) : S100000x40.Idx → Elt Ideal .f32 :=
  fun i => logSoftmaxRow (fun k => logits D hB1 hZ hB2 A B1 W B2 (ix2 (i 0) k)) (i 1)

/-- The block of logits the body computes from its four loaded blocks. -/
def logitsBlock (x0 : Vec Ideal S10000x128 .f32) (x1 : Vec Ideal S1x128 .f32) (x2 : Vec Ideal S128x40 .f32)
    (x3 : Vec Ideal S1x40 .f32) : FVec Ideal S10000x40 .f32 :=
  addf (matmul dot_S10000x128_S128x40_S10000x40_1_0_0_1_n_n none
      (truncf .bf16 (maximumf (addf (shapeCast S10000x128 x0 shapeCasts_S10000x128_S10000x128)
          (broadcastTo S10000x128 (shapeCast S1x128 x1 shapeCasts_S1x128_S1x128) broadcasts_S1x128_S10000x128))
        (broadcast S10000x128 (Scalar.ofBits (F := Ideal) .f32 0x00000000#32))) bitsLt_bf16_f32)
      (truncf .bf16 x2 bitsLt_bf16_f32) (constant S10000x40 .f32 0x00000000#32))
    (broadcastTo S10000x40 (shapeCast S1x40 x3 shapeCasts_S1x40_S1x40) broadcasts_S1x40_S10000x40)

/-- The body's payload at (p, c) is the logarithm of the softmax of row p of its block of logits. -/
theorem payload_tree (x0 : Vec Ideal S10000x128 .f32) (x1 : Vec Ideal S1x128 .f32) (x2 : Vec Ideal S128x40 .f32)
    (x3 : Vec Ideal S1x40 .f32) (p : Fin 10000) (c : Fin 40) :
    k1_pay1 (F := Ideal) x0 x1 x2 x3 (ix2 p c) = logSoftmaxRow (fun k => logitsBlock x0 x1 x2 x3 (ix2 p k)) c :=
  kernelTree_apply (a := 10000) (b := 40) (logitsBlock x0 x1 x2 x3) reduces_S10000x40_S10000 (.inl rfl) rfl rfl
    shapeCasts_S10000_S10000x1 broadcasts_S10000x1_S10000x40 p c

/-- THE BLOCK OF LOGITS at an entry, against the host's logits of the whole arrays: stated over any four blocks
    that read the arrays through row-block embeddings. -/
theorem logitsBlock_apply (D : DotDims ⟨2, ![100000, 128]⟩ ⟨2, ![128, 40]⟩ ⟨2, ![100000, 40]⟩)
    (hD : D = DotDims.plain 100000 128 40)
    (hB1 : (⟨2, ![1, 128]⟩ : Shape).BroadcastsInDim ⟨2, ![100000, 128]⟩ ![0, 1])
    (hZ : (⟨0, ![]⟩ : Shape).BroadcastsInDim ⟨2, ![100000, 128]⟩ ![])
    (hB2 : (⟨2, ![1, 40]⟩ : Shape).BroadcastsInDim ⟨2, ![100000, 40]⟩ ![0, 1])
    (A : FVec Ideal ⟨2, ![100000, 128]⟩ .f32) (B1 : FVec Ideal ⟨2, ![1, 128]⟩ .f32)
    (W : FVec Ideal ⟨2, ![128, 40]⟩ .f32) (B2 : FVec Ideal ⟨2, ![1, 40]⟩ .f32)
    (x0 : Vec Ideal S10000x128 .f32) (x1 : Vec Ideal S1x128 .f32) (x2 : Vec Ideal S128x40 .f32) (x3 : Vec Ideal S1x40 .f32)
    (e0 : S10000x128.Idx → (⟨2, ![100000, 128]⟩ : Shape).Idx) (e1 : S1x128.Idx → S1x128.Idx)
    (e2 : S128x40.Idx → S128x40.Idx) (e3 : S1x40.Idx → S1x40.Idx)
    (eo : S10000x40.Idx → (⟨2, ![100000, 40]⟩ : Shape).Idx)
    (hx0 : ∀ j, x0 j = A (e0 j)) (hx1 : ∀ j, x1 j = B1 (e1 j)) (hx2 : ∀ j, x2 j = W (e2 j)) (hx3 : ∀ j, x3 j = B2 (e3 j))
    (hr : ∀ j, e1 (rowZero j) = rowZero (e0 j))
    (h0 : ∀ y k, e0 (rowIdx y k) = rowIdx (eo y) k) (h2 : ∀ y k, e2 (colIdx y k) = colIdx (eo y) k)
    (h3 : ∀ y, e3 (rowZero y) = rowZero (eo y)) (y : S10000x40.Idx) :
    logitsBlock x0 x1 x2 x3 y = logits D hB1 hZ hB2 A B1 W B2 (eo y) := by
  unfold logitsBlock
  rw [shapeCast_self, shapeCast_self, shapeCast_self]
  refine output_block (R := 10000) (N := 100000) (K := 128) (C := 40) .bf16 .bf16
    dot_S10000x128_S128x40_S10000x40_1_0_0_1_n_n rfl D hD none none (rectified hB1 hZ A B1) W B2
    (truncf .bf16 (maximumf (addf x0 (broadcastTo S10000x128 x1 broadcasts_S1x128_S10000x128))
      (broadcast S10000x128 (Scalar.ofBits (F := Ideal) .f32 0x00000000#32))) bitsLt_bf16_f32)
    (truncf .bf16 x2 bitsLt_bf16_f32) x3 e0 e2 e3 eo (fun j => ?_) hx2 hx3 h0 h2 h3 broadcasts_S1x40_S10000x40 hB2 y
  show maximumf (addf x0 (broadcastTo S10000x128 x1 broadcasts_S1x128_S10000x128))
      (broadcast S10000x128 (Scalar.ofBits (F := Ideal) .f32 0x00000000#32)) j
    = maximumf (addf A (broadcastInDim ⟨2, ![100000, 128]⟩ ![0, 1] hB1 B1))
        (broadcastInDim ⟨2, ![100000, 128]⟩ ![] hZ (constant (F := Ideal) ⟨0, ![]⟩ .f32 0x00000000#32)) (e0 j)
  rw [maximumf_apply, maximumf_apply, addf_apply, addf_apply, stretchRow_apply, hostStretchRow_apply, hostSplat_apply,
    hx0, hx1, hr]
  rfl

/-- The output function at an index whose coordinates are known: the logarithm of the softmax of that row. -/
theorem headOut_at (D : DotDims ⟨2, ![100000, 128]⟩ ⟨2, ![128, 40]⟩ ⟨2, ![100000, 40]⟩)
    (hB1 : (⟨2, ![1, 128]⟩ : Shape).BroadcastsInDim ⟨2, ![100000, 128]⟩ ![0, 1])
    (hZ : (⟨0, ![]⟩ : Shape).BroadcastsInDim ⟨2, ![100000, 128]⟩ ![])
    (hB2 : (⟨2, ![1, 40]⟩ : Shape).BroadcastsInDim ⟨2, ![100000, 40]⟩ ![0, 1])
    (A : FVec Ideal ⟨2, ![100000, 128]⟩ .f32) (B1 : FVec Ideal ⟨2, ![1, 128]⟩ .f32)
    (W : FVec Ideal ⟨2, ![128, 40]⟩ .f32) (B2 : FVec Ideal ⟨2, ![1, 40]⟩ .f32)
    (i : S100000x40.Idx) (r : Fin 100000) (q : Fin 40) (h0 : (i 0).val = r.val) (h1 : (i 1).val = q.val) :
    headOut D hB1 hZ hB2 A B1 W B2 i = logSoftmaxRow (fun k => logits D hB1 hZ hB2 A B1 W B2 (ix2 r k)) q := by
  have hi : i = ix2 r q := funext fun a => Fin.ext (by
    match a with
    | ⟨0, _⟩ => exact h0
    | ⟨1, _⟩ => exact h1)
  subst hi
  rfl

-- the TensorCore's buffer contents when the launch is entered: a parameter, instantiated only by the caller
variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the feature window and the output window are at row block t, column
    block 0; the two bias rows and the weight matrix are always whole. -/
theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- Every row block of the output is some point's. -/
theorem blockOnto : ∀ q : Fin 10, ∃ t : Fin cfg1.N, t.val = q.val :=
  (by decide +kernel : ∀ q : Fin 10, ∃ t : Fin grid1.N, t.val = q.val)

/-- WHAT POINT t WRITES BACK is block t of the output function of the arrays as the launch finds them. -/
theorem flushed_eq (D : DotDims ⟨2, ![100000, 128]⟩ ⟨2, ![128, 40]⟩ ⟨2, ![100000, 40]⟩)
    (hD : D = DotDims.plain 100000 128 40)
    (hB1 : (⟨2, ![1, 128]⟩ : Shape).BroadcastsInDim ⟨2, ![100000, 128]⟩ ![0, 1])
    (hZ : (⟨0, ![]⟩ : Shape).BroadcastsInDim ⟨2, ![100000, 128]⟩ ![])
    (hB2 : (⟨2, ![1, 40]⟩ : Shape).BroadcastsInDim ⟨2, ![100000, 40]⟩ ![0, 1]) (c : Dev nD) (t : Fin cfg1.N) :
    (dat1 V c).flushed 4 t = ((cfg1.win 4).blk t).view.read (Elt Ideal)
      (headOut D hB1 hZ hB2 (V c main_v43) (V c main_v44) (V c main_arg4) (V c main_v45)) := by
  show (cfg1.win 4).cut (grid1.coords t) ((dat1 V c).after 4 t) = _
  rw [after1_4]
  unfold out1_4
  rw [View.canon_unit_zero zeroOffsets]
  simp only [View.ld_unit_zero (S := S10000x128) zeroOffsets, View.ld_unit_zero (S := S1x128) zeroOffsets,
    View.ld_unit_zero (S := S128x40) zeroOffsets, View.ld_unit_zero (S := S1x40) zeroOffsets]
  obtain ⟨a0, a1, b0, b1, w0, w1, d0, d1, o0, o1, ht⟩ := blockIndices t
  funext y
  obtain ⟨p, q, rfl⟩ : ∃ (p : Fin 10000) (q : Fin 40), y = ix2 p q := ⟨y 0, y 1, eq_ix2 y⟩
  refine (payload_tree (iblk1 V c 0 t) (iblk1 V c 1 t) (iblk1 V c 2 t) (iblk1 V c 3 t) p q).trans ?_
  refine Eq.trans ?_ (headOut_at D hB1 hZ hB2 (V c main_v43) (V c main_v44) (V c main_arg4) (V c main_v45)
    (((cfg1.win 4).blk t).view.emb (ix2 p q)) ⟨t.val * 10000 + p.val, by have := p.isLt; omega⟩ q
    (by show win1_4.index t (0 : Fin 2) * 10000 + 1 * p.val = t.val * 10000 + p.val; omega)
    (by show win1_4.index t (1 : Fin 2) * 40 + 1 * q.val = q.val; omega)).symm
  refine congrArg (fun row => logSoftmaxRow row q) (funext fun k => ?_)
  refine (logitsBlock_apply D hD hB1 hZ hB2 (V c main_v43) (V c main_v44) (V c main_arg4) (V c main_v45)
    (iblk1 V c 0 t) (iblk1 V c 1 t) (iblk1 V c 2 t) (iblk1 V c 3 t)
    ((cfg1.win 0).blk t).view.emb ((cfg1.win 1).blk t).view.emb ((cfg1.win 2).blk t).view.emb ((cfg1.win 3).blk t).view.emb
    ((cfg1.win 4).blk t).view.emb (fun j => rfl) (fun j => rfl) (fun j => rfl) (fun j => rfl)
    (fun j => ?_) (fun y k => ?_) (fun y k => ?_) (fun y => ?_) (ix2 p k)).trans ?_
  · funext a; apply Fin.ext
    match a with
    | ⟨0, _⟩ => show win1_1.index t (0 : Fin 2) * 1 + 1 * 0 = 0; omega
    | ⟨1, _⟩ => show win1_1.index t (1 : Fin 2) * 128 + 1 * (j 1).val = win1_0.index t (1 : Fin 2) * 128 + 1 * (j 1).val; omega
  · funext a; apply Fin.ext
    match a with
    | ⟨0, _⟩ => show win1_0.index t (0 : Fin 2) * 10000 + 1 * (y 0).val = win1_4.index t (0 : Fin 2) * 10000 + 1 * (y 0).val; omega
    | ⟨1, _⟩ => show win1_0.index t (1 : Fin 2) * 128 + 1 * k.val = k.val; omega
  · funext a; apply Fin.ext
    match a with
    | ⟨0, _⟩ => show win1_2.index t (0 : Fin 2) * 128 + 1 * k.val = k.val; omega
    | ⟨1, _⟩ => show win1_2.index t (1 : Fin 2) * 40 + 1 * (y 1).val = win1_4.index t (1 : Fin 2) * 40 + 1 * (y 1).val; omega
  · funext a; apply Fin.ext
    match a with
    | ⟨0, _⟩ => show win1_3.index t (0 : Fin 2) * 1 + 1 * 0 = 0; omega
    | ⟨1, _⟩ => show win1_3.index t (1 : Fin 2) * 40 + 1 * (y 1).val = win1_4.index t (1 : Fin 2) * 40 + 1 * (y 1).val; omega
  · refine congrArg (logits D hB1 hZ hB2 (V c main_v43) (V c main_v44) (V c main_arg4) (V c main_v45)) ?_
    funext a; apply Fin.ext
    match a with
    | ⟨0, _⟩ => show win1_4.index t (0 : Fin 2) * 10000 + 1 * p.val = t.val * 10000 + p.val; omega
    | ⟨1, _⟩ => show win1_4.index t (1 : Fin 2) * 40 + 1 * k.val = k.val; omega

/-- An index of the output array is in point t's block iff each coordinate is in the block's range on its axis. -/
theorem mem_block (t : Fin cfg1.N) (i : S100000x40.Idx) :
    i ∈ ((cfg1.win 4).blk t).view.set ↔ ∀ a : Fin 2, win1_4.index t a * S10000x40.size a ≤ (i a).val ∧ (i a).val < win1_4.index t a * S10000x40.size a + S10000x40.size a := by
  show i ∈ ((View.whole main_v46).slice (win1_4.rect t)).set ↔ _
  rw [View.set_slice_whole, Rect.mem_set_unit]
  exact Iff.rfl

/-- The ten blocks tile the output array: row r is in the block of point r / 10000. -/
theorem covered (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  obtain ⟨t, ht⟩ := blockOnto ⟨(i 0).val / 10000, by omega⟩
  have ht' : t.val = (i 0).val / 10000 := ht
  obtain ⟨-, -, -, -, -, -, -, -, o0, o1, -⟩ := blockIndices t
  refine ⟨t, flush1_4 t, ?_⟩
  rw [mem_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 40 ≤ (i 1).val ∧ (i 1).val < win1_4.index t (1 : Fin 2) * 40 + 40; omega

/-- THE OUTPUT ARRAY after the second launch: at (r, c) the logarithm of the softmax of row r of the logits of the
    arrays as the launch finds them. -/
theorem headResult (D : DotDims ⟨2, ![100000, 128]⟩ ⟨2, ![128, 40]⟩ ⟨2, ![100000, 40]⟩)
    (hD : D = DotDims.plain 100000 128 40)
    (hB1 : (⟨2, ![1, 128]⟩ : Shape).BroadcastsInDim ⟨2, ![100000, 128]⟩ ![0, 1])
    (hZ : (⟨0, ![]⟩ : Shape).BroadcastsInDim ⟨2, ![100000, 128]⟩ ![])
    (hB2 : (⟨2, ![1, 40]⟩ : Shape).BroadcastsInDim ⟨2, ![100000, 40]⟩ ![0, 1]) (c : Dev nD) :
    (dat1 V c).arrAt 4 cfg1.N
      = headOut D hB1 hZ hB2 (V c main_v43) (V c main_v44) (V c main_arg4) (V c main_v45) :=
  (dat1 V c).arrAt_eq_of_cover 4 _ (fun t _ => flushed_eq V D hD hB1 hZ hB2 c t) covered

end Cert.KernelIdeal.Head

end
-- ==== Proof.LibJoinCongr.lean ====
/-
  Joining two arrays along an axis respects equality of the pieces.

  The join's side condition speaks only of the pieces' shapes, so replacing each piece by an equal one of the same
  shape leaves the condition as it is.  Stated as a congruence rule for the two pieces.
-/
import Idealize.ShloMosaic.PureOps.ShapeOps

namespace Cert.Lib.JoinCongr

open Idealize.ShloMosaic

/-- Two pieces joined along an axis: equal pieces give equal joins. -/
theorem concatenate_pair_congr {α : Type} {t : Shape} {d : Fin t.rank} {s1 s2 : Shape} {a a' : s1.Idx → α} {b b' : s2.Idx → α}
    (h : Shape.Concatenates ([(⟨s1, a⟩ : (s : Shape) × (s.Idx → α)), ⟨s2, b⟩].map (·.1)) t d) (ha : a = a') (hb : b = b') :
    concatenate t d [⟨s1, a⟩, ⟨s2, b⟩] h = concatenate t d [⟨s1, a'⟩, ⟨s2, b'⟩] h := by
  subst ha; subst hb; rfl

end Cert.Lib.JoinCongr
-- ==== Proof.Between.lean ====
/-
  The host operations between the two launches.

  Between the launches the program builds the edge list with self loops, counts degrees by a scatter-add of ones, takes
  the inverse square root where the degree is positive, gathers the two normalisation factors per edge, scales the
  gathered rows of the first launch's product, and scatter-adds them by destination: the aggregated features.  It also
  reshapes the two bias vectors to one-row matrices.  These are the reference's own operations with the product in
  the place of the reference's dot_general, so the aggregated features are the reference's stage functions applied to
  the product and the edge list; the weight matrix is not written by any of them.
-/
import proofs.«160370_j20864951124663_1_alg».proof.Proof.Gen.KernelIdeal.Frame
import proofs.«160370_j20864951124663_1_alg».proof.Proof.RefRead
import proofs.«160370_j20864951124663_1_alg».proof.Proof.LibJoinCongr
import Idealize.ShloMosaic.Lib.StableHlo.Run

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

variable {F : FTy → Type} [FloatOps F]

attribute [local congr] Cert.Lib.JoinCongr.concatenate_pair_congr

/-- The aggregated features as a function of the projected features h and the edge list e: the reference's
    scatter-add by destination of the normalisation factors times the gathered rows of h. -/
def aggOf (h : (⟨Cert.ReferenceIdeal.S100000x128, .f32⟩ : BufTy).Contents (Elt F)) (e : (⟨Cert.ReferenceIdeal.S2x1600000, .i32⟩ : BufTy).Contents (Elt F)) :
    (⟨Cert.ReferenceIdeal.S100000x128, .f32⟩ : BufTy).Contents (Elt F) :=
  Host.scatterAdd Cert.ReferenceIdeal.scatter_S100000x128_S1700000x1_S1700000x128_1_0_0_1 (Cert.ReferenceIdeal.ReadP.val_main_v41 (F := F))
    (Cert.ReferenceIdeal.ReadP.val_main_v42 (F := F) e)
    (mulf (Cert.ReferenceIdeal.ReadP.val_main_v39 (F := F) e)
      (Host.gather Cert.ReferenceIdeal.gather_S100000x128_S1700000x1_S1700000x128_1_0_n_n_0_1_1128 h (Cert.ReferenceIdeal.ReadP.val_main_v37 (F := F) e)))

/-- The reference's aggregated features are that function of its own product. -/
theorem ref_agg (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S128x128, .f32⟩ : BufTy).Contents (Elt F)) :
    Cert.ReferenceIdeal.ReadP.val_main_v43 (F := F) x0 x1 x2 = aggOf (Cert.ReferenceIdeal.ReadP.val_main_v30 (F := F) x0 x2) x1 := by
  unfold Cert.ReferenceIdeal.ReadP.val_main_v43 Cert.ReferenceIdeal.ReadP.val_main_v40 Cert.ReferenceIdeal.ReadP.val_main_v38 aggOf
  with_reducible rfl

set_option maxHeartbeats 4000000 in
/-- After the three stretches the aggregate's buffer holds that function of the product's buffer and the edge list. -/
theorem agg_after (W : Valuation τ sig (Elt F)) :
    after hostOps1_2 (after hostOps1_1 (after hostOps1 W)) (Proc.devRef .tc main_v43)
      = aggOf (W (Proc.devRef .tc main_v0)) (W (Proc.devRef .tc main_arg1)) := by
  after_results_simp
  rfl

/-- The first bias vector reshaped to one row. -/
theorem bias1_after (W : Valuation τ sig (Elt F)) :
    after hostOps1_2 (after hostOps1_1 (after hostOps1 W)) (Proc.devRef .tc main_v44)
      = shapeCast S1x128 (W (Proc.devRef .tc main_arg3)) shapeCasts_S128_S1x128 := by
  after_results_simp <;> rfl

/-- The second bias vector reshaped to one row. -/
theorem bias2_after (W : Valuation τ sig (Elt F)) :
    after hostOps1_2 (after hostOps1_1 (after hostOps1 W)) (Proc.devRef .tc main_v45)
      = shapeCast S1x40 (W (Proc.devRef .tc main_arg5)) shapeCasts_S40_S1x40 := by
  after_results_simp <;> rfl

/-- No operation between the launches writes the second weight matrix. -/
theorem weights_after (W : Valuation τ sig (Elt F)) :
    after hostOps1_2 (after hostOps1_1 (after hostOps1 W)) (Proc.devRef .tc main_arg4) = W (Proc.devRef .tc main_arg4) := by
  after_results_simp <;> rfl

/-! ## At the second launch's entry -/

variable (m : (ℓ : Loc nD τ sig) → Buf (Elt F) ℓ) (ρ : Dev nD → PrngReg)

/-- The aggregate as the second launch finds it: that function of the first launch's output array and the edge list. -/
theorem entry_agg (c : Dev nD) :
    V4 m ρ c main_v43 = aggOf ((dat0 (V0 m ρ) c).arrAt 2 cfg0.N) (m ((c : Thread nD τ).loc main_arg1)) := by
  refine (agg_after (W1 m ρ c)).trans ?_
  rw [W1_arr m ρ c 2, W1_of_ne m ρ c main_arg1 (by decide)]

theorem entry_bias1 (c : Dev nD) :
    V4 m ρ c main_v44 = shapeCast S1x128 (m ((c : Thread nD τ).loc main_arg3)) shapeCasts_S128_S1x128 := by
  refine (bias1_after (W1 m ρ c)).trans ?_
  rw [W1_of_ne m ρ c main_arg3 (by decide)]

theorem entry_bias2 (c : Dev nD) :
    V4 m ρ c main_v45 = shapeCast S1x40 (m ((c : Thread nD τ).loc main_arg5)) shapeCasts_S40_S1x40 := by
  refine (bias2_after (W1 m ρ c)).trans ?_
  rw [W1_of_ne m ρ c main_arg5 (by decide)]

theorem entry_weights (c : Dev nD) : V4 m ρ c main_arg4 = m ((c : Thread nD τ).loc main_arg4) := by
  refine (weights_after (W1 m ρ c)).trans ?_
  rw [W1_of_ne m ρ c main_arg4 (by decide)]

end Cert.KernelIdeal.Between

end
-- ==== Proof.RefValue.lean ====
/-
  The reference's run, read at its result.

  The reference is a straight line of 82 host operations, so every weakly fair execution ends with each buffer at the
  fold of the operations' results over the launch contents.  The line is cut after the logits: the first 67 operations
  compute them (the edge list with self loops, the degree normalisation, x · W1, the gather / scatter-add aggregation,
  the bias, the rectifier, the product with the second weight matrix, its bias), the last 15 are the outlined
  logarithm of the softmax.  The first stretch is read as the stage function of the logits; the second is read over an
  arbitrary array in place of the logits — its operations pass values through typed references, whose two
  transports cancel — and is the subtraction / maximum / exponential / sum / logarithm tree of that array.  Together:
  the result buffer holds the stage function of the result, of the six arguments, and the arguments are as launched.
-/
import proofs.«160370_j20864951124663_1_alg».proof.Proof.RefRun
import proofs.«160370_j20864951124663_1_alg».proof.Proof.RefRead
import proofs.«160370_j20864951124663_1_alg».proof.Proof.LibJoinCongr
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

attribute [local congr] Cert.Lib.JoinCongr.concatenate_pair_congr

/-! ## The line, cut after the logits -/

/-- The first 67 operations: up to the logits. -/
abbrev opsLogits : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v29 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v30 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v38 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg5 main_v49 (broadcastInDim S1x40 ![1] bcast_S40_S1x40_1 : (⟨S40, .f32⟩ : BufTy).Contents (Elt F) → (⟨S1x40, .f32⟩ : BufTy).Contents (Elt F)),
    unary main_v49 main_v50 (broadcastInDim S100000x40 ![0, 1] bcast_S1x40_S100000x40_0_1 : (⟨S1x40, .f32⟩ : BufTy).Contents (Elt F) → (⟨S100000x40, .f32⟩ : BufTy).Contents (Elt F)),
    binary main_v48 main_v50 main_v51 (addf : (⟨S100000x40, .f32⟩ : BufTy).Contents (Elt F) → (⟨S100000x40, .f32⟩ : BufTy).Contents (Elt F) → (⟨S100000x40, .f32⟩ : BufTy).Contents (Elt F)) ]

/-- The last 15 operations: the outlined logarithm of the softmax. -/
abbrev opsLogSoftmax : List (HloOp τ sig (Elt F)) :=
  [ TRef.nullary (TRef.of (T := ⟨S_, .f32⟩) main_call2_cst) (constant S_ .f32 0xFF800000#32),
    TRef.binary (TRef.of (T := ⟨S100000x40, .f32⟩) main_v51) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v51) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v52) subf ]

set_option maxRecDepth 16384 in
theorem ops_split : (ops : List (HloOp τ sig (Elt F))) = opsLogits ++ opsLogSoftmax := rfl

/-- The fold over a line cut in two is the fold over the second part of the fold over the first. -/
theorem after_append {Val : EltTy → Type} (l1 l2 : List (HloOp τ sig Val)) (V : Valuation τ sig Val) :
    after (l1 ++ l2) V = after l2 (after l1 V) := by
  induction l1 generalizing V with
  | nil => rfl
  | cons op l ih => simp only [List.cons_append, after_cons]; exact ih _

/-! ## Typed references: the two transports cancel -/

/-- Contents carried to a typed reference's buffer and back are the contents. -/
theorem ofBuf_toBuf {Val : EltTy → Type} {T : BufTy} (x : TRef sig T) (v : T.Contents Val) : x.ofBuf (x.toBuf v) = v := by
  obtain ⟨r, h, h2, h3⟩ := x
  subst h
  rfl

/-- Reading the logits' buffer through its typed reference is reading it. -/
theorem ofBuf_logits (p1 : main_v51.ty = ⟨S100000x40, .f32⟩) (p2 : main_v51.space ≠ .host) (p3 : main_v51.isScoped = false)
    (v : (⟨S100000x40, .f32⟩ : BufTy).Contents (Elt F)) : (TRef.of main_v51 p1 p2 p3).ofBuf v = v := rfl

/-- Writing the result's buffer through its typed reference is writing it. -/
theorem toBuf_result (p1 : main_v52.ty = ⟨S100000x40, .f32⟩) (p2 : main_v52.space ≠ .host) (p3 : main_v52.isScoped = false)
    (v : (⟨S100000x40, .f32⟩ : BufTy).Contents (Elt F)) : (TRef.of main_v52 p1 p2 p3).toBuf v = v := rfl

/-! ## The second stretch over an arbitrary array -/

/-- The logarithm of the softmax along axis 1 as the host's operations compute it from an array L. -/
def logSoftmaxOf (L : (⟨S100000x40, .f32⟩ : BufTy).Contents (Elt F)) : (⟨S100000x40, .f32⟩ : BufTy).Contents (Elt F) :=
  subf (subf L (broadcastInDim S100000x40 ![0, 1] bcast_S100000x1_S100000x40_0_1 (broadcastInDim S100000x1 ![0] bcast_S100000_S100000x1_0 (maximumf (broadcastInDim S100000 ![] bcast_S_S100000 (constant (F := F) S_ .f32 0xFF800000#32)) (Host.reduce FloatOps.maximumf L (constant (F := F) S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf L (broadcastInDim S100000x40 ![0, 1] bcast_S100000x1_S100000x40_0_1 (broadcastInDim S100000x1 ![0] bcast_S100000_S100000x1_0 (maximumf (broadcastInDim S100000 ![] bcast_S_S100000 (constant (F := F) S_ .f32 0xFF800000#32)) (Host.reduce FloatOps.maximumf L (constant (F := F) S_ .f32 0xFF800000#32) reducesTo_S100000x40_S100000_d1 h_S_)))))) (constant (F := F) S_ .f32 0x00000000#32) reducesTo_S100000x40_S100000_d1 h_S_))))

set_option maxRecDepth 16384 in
theorem logSoftmax_after (W : Valuation τ sig (Elt F)) :
    after opsLogSoftmax W (Proc.devRef .tc main_v52) = logSoftmaxOf (W (Proc.devRef .tc main_v51)) := by
  after_results_simp
  simp only [ofBuf_toBuf, ofBuf_logits, toBuf_result]
  unfold logSoftmaxOf
  with_reducible rfl

/-- The stage function of the result is that tree of the stage function of the logits. -/
theorem val_result_eq (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x40, .f32⟩ : BufTy).Contents (Elt F)) (x5 : (⟨S40, .f32⟩ : BufTy).Contents (Elt F)) :
    logSoftmaxOf (val_main_v51 (F := F) x0 x1 x2 x3 x4 x5) = val_main_v52 (F := F) x0 x1 x2 x3 x4 x5 := by
  unfold logSoftmaxOf val_main_v52 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1
  with_reducible rfl

/-! ## The first stretch: the logits -/

set_option maxRecDepth 16384 in
set_option maxHeartbeats 4000000 in
theorem logits_after (m : (ℓ : Loc nD τ sig) → Buf (Elt F) ℓ) (c : Dev nD) :
    after opsLogits (launchContents m c) (Proc.devRef .tc main_v51)
      = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  rfl

/-! ## The run -/

set_option maxRecDepth 16384 in
theorem result_after (m : (ℓ : Loc nD τ sig) → Buf (Elt F) ℓ) (c : Dev nD) :
    after ops (launchContents m c) (Proc.devRef .tc main_v52)
      = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, after_append, logSoftmax_after, logits_after m c]
  exact val_result_eq _ _ _ _ _ _

set_option maxRecDepth 16384 in
theorem kept0 (m : (ℓ : Loc nD τ sig) → Buf (Elt F) ℓ) (c : Dev nD) :
    after ops (launchContents m c) (Proc.devRef .tc main_arg0) = m ((c.tc : Thread nD τ).loc main_arg0) := by
  after_results_simp <;> rfl
set_option maxRecDepth 16384 in
theorem kept1 (m : (ℓ : Loc nD τ sig) → Buf (Elt F) ℓ) (c : Dev nD) :
    after ops (launchContents m c) (Proc.devRef .tc main_arg1) = m ((c.tc : Thread nD τ).loc main_arg1) := by
  after_results_simp <;> rfl
set_option maxRecDepth 16384 in
theorem kept2 (m : (ℓ : Loc nD τ sig) → Buf (Elt F) ℓ) (c : Dev nD) :
    after ops (launchContents m c) (Proc.devRef .tc main_arg2) = m ((c.tc : Thread nD τ).loc main_arg2) := by
  after_results_simp <;> rfl
set_option maxRecDepth 16384 in
theorem kept3 (m : (ℓ : Loc nD τ sig) → Buf (Elt F) ℓ) (c : Dev nD) :
    after ops (launchContents m c) (Proc.devRef .tc main_arg3) = m ((c.tc : Thread nD τ).loc main_arg3) := by
  after_results_simp <;> rfl
set_option maxRecDepth 16384 in
theorem kept4 (m : (ℓ : Loc nD τ sig) → Buf (Elt F) ℓ) (c : Dev nD) :
    after ops (launchContents m c) (Proc.devRef .tc main_arg4) = m ((c.tc : Thread nD τ).loc main_arg4) := by
  after_results_simp <;> rfl
set_option maxRecDepth 16384 in
theorem kept5 (m : (ℓ : Loc nD τ sig) → Buf (Elt F) ℓ) (c : Dev nD) :
    after ops (launchContents m c) (Proc.devRef .tc main_arg5) = m ((c.tc : Thread nD τ).loc main_arg5) := by
  after_results_simp <;> rfl

/-- On every device, from any memory with zero counters: every weakly fair execution of the reference terminates
    with the result buffer at the stage function of the result, of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v52).trans (result_after m c),
      (h c main_arg0).trans (kept0 m c), (h c main_arg1).trans (kept1 m c), (h c main_arg2).trans (kept2 m c),
      (h c main_arg3).trans (kept3 m c), (h c main_arg4).trans (kept4 m c), (h c main_arg5).trans (kept5 m c)⟩)
    (run_seq scopedRefs_eq scopedSems_eq defs main (fun _ => ops) main_eq (fun _ => ops_sub) m ρ)

end Cert.ReferenceIdeal.RefValue

end
-- ==== Proof.Bridge.lean ====
/-
  The two programs compute one function of the six arguments.

  The target: the logarithm of the softmax, row by row, of the logits
      max (A + b1 stretched down the rows, 0) · lin_W + lin_b stretched down the rows,
  A the aggregated features of the product x · W1 and the edge list.  On the kernel's side the first launch leaves
  the product, the host operations between the launches turn it into A and reshape the two biases to rows (a reshape
  of a vector to one row is the broadcast the reference uses), and the second launch leaves the target block by
  block.  On the reference's side the stage function of the result is the host's tree over the stage function of
  the logits, which is the same logits, read row by row.
-/
import proofs.«160370_j20864951124663_1_alg».proof.Proof.Projection
import proofs.«160370_j20864951124663_1_alg».proof.Proof.Head
import proofs.«160370_j20864951124663_1_alg».proof.Proof.Between
import proofs.«160370_j20864951124663_1_alg».proof.Proof.RefValue

set_option maxRecDepth 16384

noncomputable section

namespace Cert.Proof.Bridge

open Idealize.ShloMosaic Idealize.ShloMosaic.TcCoe Idealize.ShloMosaic.ValueIdx Idealize.SL.Sem
open Cert.Lib.LogSoftmaxRow Cert.Bridge
open Cert.KernelIdeal.Projection Cert.KernelIdeal.Head Cert.KernelIdeal.Between
open Cert.ReferenceIdeal.ReadP (val_main_v30 val_main_v43 val_main_v44 val_main_v45 val_main_v46 val_main_v47 val_main_v48 val_main_v49
  val_main_v50 val_main_v51 val_main_v52 val_main_call1_v0 val_main_call1_cst)

/-- The dimension records and shape facts the target is stated with: the reference's own. -/
abbrev D0 := Cert.ReferenceIdeal.dot_S100000x128_S128x128_S100000x128_1_0_0_1_n_n
abbrev D1 := Cert.ReferenceIdeal.dot_S100000x128_S128x40_S100000x40_1_0_0_1_n_n

/-- THE TARGET: the result array as one function of the six argument arrays. -/
def target (x0 : FVec Ideal ⟨2, ![100000, 128]⟩ .f32) (x1 : (⟨Cert.ReferenceIdeal.S2x1600000, .i32⟩ : BufTy).Contents (Elt Ideal))
    (x2 : FVec Ideal ⟨2, ![128, 128]⟩ .f32) (x3 : FVec Ideal ⟨1, ![128]⟩ .f32) (x4 : FVec Ideal ⟨2, ![128, 40]⟩ .f32)
    (x5 : FVec Ideal ⟨1, ![40]⟩ .f32) : Cert.KernelIdeal.S100000x40.Idx → Elt Ideal .f32 :=
  headOut D1 Cert.ReferenceIdeal.Facts₀.bcast_S1x128_S100000x128_0_1 Cert.ReferenceIdeal.Facts₀.bcast_S_S100000x128 Cert.ReferenceIdeal.Facts₀.bcast_S1x40_S100000x40_0_1
    (aggOf (product D0 x0 x2) x1) (val_main_v44 (F := Ideal) x3) x4 (val_main_v49 (F := Ideal) x5)

/-- A vector reshaped to one row is the vector broadcast along a new leading axis: the first bias row. -/
theorem biasRow1 (v : FVec Ideal ⟨1, ![128]⟩ .f32) :
    shapeCast Cert.KernelIdeal.S1x128 v Cert.KernelIdeal.Facts₀.shapeCasts_S128_S1x128 = val_main_v44 (F := Ideal) v := by
  unfold val_main_v44
  exact reshapeRow_eq (C := 128) v _ _

/-- The same for the second bias row. -/
theorem biasRow2 (v : FVec Ideal ⟨1, ![40]⟩ .f32) :
    shapeCast Cert.KernelIdeal.S1x40 v Cert.KernelIdeal.Facts₀.shapeCasts_S40_S1x40 = val_main_v49 (F := Ideal) v := by
  unfold val_main_v49
  exact reshapeRow_eq (C := 40) v _ _

/-! ## The kernel's side -/

open Cert.KernelIdeal Cert.KernelIdeal.Gen in
/-- The second launch's output array after the run is the target of the argument arrays. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (dat1 (V4 m ρ) c).arrAt 4 cfg1.N
      = target (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (headResult (V4 m ρ) D1 rfl Cert.ReferenceIdeal.Facts₀.bcast_S1x128_S100000x128_0_1 Cert.ReferenceIdeal.Facts₀.bcast_S_S100000x128
    Cert.ReferenceIdeal.Facts₀.bcast_S1x40_S100000x40_0_1 c).trans ?_
  rw [entry_agg m ρ c, entry_bias1 m ρ c, entry_weights m ρ c, entry_bias2 m ρ c, projected m ρ D0 rfl c, biasRow1, biasRow2]
  rfl

/-! ## The reference's side -/

/-- The reference's logits are the host form of the target's logits. -/
theorem ref_logits (x0 : FVec Ideal ⟨2, ![100000, 128]⟩ .f32) (x1 : (⟨Cert.ReferenceIdeal.S2x1600000, .i32⟩ : BufTy).Contents (Elt Ideal))
    (x2 : FVec Ideal ⟨2, ![128, 128]⟩ .f32) (x3 : FVec Ideal ⟨1, ![128]⟩ .f32) (x4 : FVec Ideal ⟨2, ![128, 40]⟩ .f32)
    (x5 : FVec Ideal ⟨1, ![40]⟩ .f32) :
    val_main_v51 (F := Ideal) x0 x1 x2 x3 x4 x5
      = logits D1 Cert.ReferenceIdeal.Facts₀.bcast_S1x128_S100000x128_0_1 Cert.ReferenceIdeal.Facts₀.bcast_S_S100000x128 Cert.ReferenceIdeal.Facts₀.bcast_S1x40_S100000x40_0_1
          (aggOf (product D0 x0 x2) x1) (val_main_v44 (F := Ideal) x3) x4 (val_main_v49 (F := Ideal) x5) := by
  unfold val_main_v51 val_main_v48 val_main_v47 val_main_v46 val_main_v45 val_main_v50 val_main_call1_v0 val_main_call1_cst
  rw [ref_agg]
  unfold val_main_v30
  with_reducible rfl

/-- The reference's stage function of the result is the target. -/
theorem ref_value (x0 : FVec Ideal ⟨2, ![100000, 128]⟩ .f32) (x1 : (⟨Cert.ReferenceIdeal.S2x1600000, .i32⟩ : BufTy).Contents (Elt Ideal))
    (x2 : FVec Ideal ⟨2, ![128, 128]⟩ .f32) (x3 : FVec Ideal ⟨1, ![128]⟩ .f32) (x4 : FVec Ideal ⟨2, ![128, 40]⟩ .f32)
    (x5 : FVec Ideal ⟨1, ![40]⟩ .f32) :
    val_main_v52 (F := Ideal) x0 x1 x2 x3 x4 x5 = target x0 x1 x2 x3 x4 x5 := by
  funext i
  obtain ⟨r, q, rfl⟩ : ∃ (r : Fin 100000) (q : Fin 40), i = ix2 r q := ⟨i 0, i 1, eq_ix2 i⟩
  rw [← Cert.ReferenceIdeal.RefValue.val_result_eq]
  unfold Cert.ReferenceIdeal.RefValue.logSoftmaxOf
  refine (hostTree_apply (n := 100000) (b := 40) (val_main_v51 (F := Ideal) x0 x1 x2 x3 x4 x5)
    Cert.ReferenceIdeal.Facts₀.reducesTo_S100000x40_S100000_d1 (by decide) Cert.ReferenceIdeal.Facts₀.h_S_ Cert.ReferenceIdeal.Facts₀.bcast_S_S100000
    Cert.ReferenceIdeal.Facts₀.bcast_S100000_S100000x1_0 Cert.ReferenceIdeal.Facts₀.bcast_S100000x1_S100000x40_0_1 r q).trans ?_
  rw [ref_logits]
  rfl

end Cert.Proof.Bridge

end
-- ==== Proof.lean ====
/-
  A graph-convolution layer followed by a linear layer and a logarithm of a softmax, computed two ways.

  Inputs: node features x [100000, 128], an edge list [2, 1600000] of 32-bit integers, weights W1 [128, 128] and lin_W
  [128, 40], biases b1 [128] and lin_b [40].  With the self loops appended to the edge list, deg the number of edges
  into each node and d = deg^(-1/2) where deg > 0 (else 0), both programs compute
      h = x · W1,      A(v, :) = the sum over edges (u → v) of d(u) · d(v) · h(u, :),
      l = max (A + b1, 0) · lin_W + lin_b,      out(v, c) = l(v, c) - M(v) - log (sum over j of exp (l(v, j) - M(v))),
  M(v) the maximum of row v of l.  The kernel computes h in one launch over ten blocks of 10000 rows and the last line in a
  second launch over the same blocks, with the gather / scatter-add aggregation done by host operations between the
  two; its matrix products round their operands to bfloat16 first, which at the ideal values is the identity.  The
  reference is a straight line of host operations.  At the ideal values (extended reals, exact operations) the two
  results are equal entry by entry: a block of a matrix product is the block of the product, the host's operations
  between the launches are the reference's own, a vector reshaped to one row is that vector broadcast along a new axis,
  and the kernel's lane reductions and the host's axis reductions of a row are the same maximum and the same sum.
  Nothing here divides or cancels, so the inputs' finiteness is not used.

  The three frame statements: the kernel's and the idealized kernel's are the generated frames; the reference's is its
  run with the result forgotten.  The idealization rewrote nothing, so there is nothing to preserve.
-/
import proofs.«160370_j20864951124663_1_alg».proof.Defs
import proofs.«160370_j20864951124663_1_alg».proof.Proof.Gen.Kernel
import proofs.«160370_j20864951124663_1_alg».proof.Proof.Gen.Kernel.Skeleton
import proofs.«160370_j20864951124663_1_alg».proof.Proof.Gen.Kernel.Launch
import proofs.«160370_j20864951124663_1_alg».proof.Proof.Gen.Kernel.Points
import proofs.«160370_j20864951124663_1_alg».proof.Proof.Gen.Kernel.Frame
import proofs.«160370_j20864951124663_1_alg».proof.Proof.Gen.KernelIdeal
import proofs.«160370_j20864951124663_1_alg».proof.Proof.Gen.KernelIdeal.Skeleton
import proofs.«160370_j20864951124663_1_alg».proof.Proof.Gen.KernelIdeal.Launch
import proofs.«160370_j20864951124663_1_alg».proof.Proof.Gen.KernelIdeal.Points
import proofs.«160370_j20864951124663_1_alg».proof.Proof.Gen.KernelIdeal.Frame
import proofs.«160370_j20864951124663_1_alg».proof.Proof.Gen.ReferenceIdeal
import proofs.«160370_j20864951124663_1_alg».proof.Proof.Gen.Pre_finite_inputs
import proofs.«160370_j20864951124663_1_alg».proof.Proof.KernelRun
import proofs.«160370_j20864951124663_1_alg».proof.Proof.Bridge
import Idealize.ShloMosaic.Adequacy
import Idealize.ShloMosaic.Init

noncomputable section

namespace Cert.Proof

open Idealize.ShloMosaic Idealize.ShloMosaic.TcCoe Idealize.SL.Sem

/-- The kernel, read at the machine's words: every weakly fair execution ends, nothing faults, the arguments stay. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- From memories that agree on the six arguments, both idealized programs end with the result array at the target
    function of the arguments: the kernel's second launch leaves it block by block, the reference's last stage is it. -/
theorem algebraic : Cert.algebraic_KernelIdeal_ReferenceIdeal := by
  intro m ρ m' ρ' _ hagree
  refine ⟨fun c => Bridge.target
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Bridge.kernel_value m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5⟩ := hagree c
    rw [e0, e1, e2, e3, e4, e5]
    exact Bridge.ref_value _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
